-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S50000x64 : Shape := ⟨2, ![50000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S1024x64 .f32) (main_arg1 : FVec F S50000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S1024x64 : Shape := ⟨2, ![1024, 64]⟩
abbrev S50000x64 : Shape := ⟨2, ![50000, 64]⟩
abbrev S1024x50000 : Shape := ⟨2, ![1024, 50000]⟩
abbrev S1536x64 : Shape := ⟨2, ![1536, 64]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S50000x64, .f32⟩
  | .hbm, ⟨2, _⟩ => ⟨S1024x50000, .f32⟩
  | .local _ .vmem, ⟨0, _⟩ => ⟨S1024x64, .f32⟩
  | .local _ .vmem, ⟨1, _⟩ => ⟨S1536x64, .f32⟩
  | .local _ .vmem, ⟨2, _⟩ => ⟨S1536x64, .f32⟩
  | .local _ .vmem, ⟨3, _⟩ => ⟨S1024x1536, .f32⟩
  | .local _ .vmem, ⟨4, _⟩ => ⟨S1024x1536, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  inb_S1536x64_S1536x64_0_0 : ∀ a, (![0, 0] : Fin 2 → Nat) a + S1536x64.size a ≤ S1536x64.size a
  h_S1536x64 : 0 < S1536x64.numel
  bitsLt_bf16_f32 : FTy.bits .bf16 < FTy.bits .f32
  inb_S1024x1536_S1024x1536_0_0 : ∀ a, (![0, 0] : Fin 2 → Nat) a + S1024x1536.size a ≤ S1024x1536.size a
  h_S1024x1536 : 0 < S1024x1536.numel
  dot_S1024x64_S1536x64_S1024x1536_1_1_0_0_n_n_wf : DotDims.WF S1024x64 S1536x64 S1024x1536 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1536x64.size a < S50000x64.size a
  hwx0_1 : ∀ i : grid0.Coords, EltTy.bits .f32 = 32 ∨ (Rect.unit (s := S50000x64) (fun a => cc0_transform_1 i a * S1536x64.size a) (fun a => (Pipeline.Clip.of (cc0_transform_1 i a) (S1536x64.size a) (S50000x64.size a)).extent (S1536x64.size a)) fun a => Pipeline.Clip.inb (Pipeline.Clip.ok_of (hstart0_1 i a))).WholeWords (EltTy.packing .f32)
  hwxs0_1 : ∀ i : grid0.Coords, EltTy.bits .f32 = 32 ∨ (Rect.unit (s := S1536x64) (fun _ => 0) (fun a => (Pipeline.Clip.of (cc0_transform_1 i a) (S1536x64.size a) (S50000x64.size a)).extent (S1536x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1536.size a < S1024x50000.size a
  hwx0_2 : ∀ i : grid0.Coords, EltTy.bits .f32 = 32 ∨ (Rect.unit (s := S1024x50000) (fun a => cc0_transform_2 i a * S1024x1536.size a) (fun a => (Pipeline.Clip.of (cc0_transform_2 i a) (S1024x1536.size a) (S1024x50000.size a)).extent (S1024x1536.size a)) fun a => Pipeline.Clip.inb (Pipeline.Clip.ok_of (hstart0_2 i a))).WholeWords (EltTy.packing .f32)
  hwxs0_2 : ∀ i : grid0.Coords, EltTy.bits .f32 = 32 ∨ (Rect.unit (s := S1024x1536) (fun _ => 0) (fun a => (Pipeline.Clip.of (cc0_transform_2 i a) (S1024x1536.size a) (S1024x50000.size a)).extent (S1024x1536.size a)) fun a => (Nat.zero_add _).trans_le (Pipeline.Clip.extent_le (Pipeline.Clip.ok_of (hstart0_2 i a)))).WholeWords (EltTy.packing .f32)

variable [Facts₀]

def dot_S1024x64_S1536x64_S1024x1536_1_1_0_0_n_n : DotDims S1024x64 S1536x64 S1024x1536 where
  lhsContracting := [1]
  rhsContracting := [1]
  lhsNonContracting := [0]
  rhsNonContracting := [0]
  lhsBatch := []
  rhsBatch := []
  wf := dot_S1024x64_S1536x64_S1024x1536_1_1_0_0_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1536x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1024x1536.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S50000x64 : Shape := ⟨2, ![50000, 64]⟩
abbrev S64x50000 : Shape := ⟨2, ![64, 50000]⟩
abbrev S1024x50000 : Shape := ⟨2, ![1024, 50000]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S50000x64, .f32⟩
  | .hbm, ⟨2, _⟩ => ⟨S64x50000, .f32⟩
  | .hbm, ⟨3, _⟩ => ⟨S1024x50000, .f32⟩
  | .hbm, ⟨4, _⟩ => ⟨S1024x50000, .f32⟩
  | .hbm, ⟨5, _⟩ => ⟨S1024x64, .f32⟩
  | .hbm, ⟨6, _⟩ => ⟨S50000x64, .f32⟩
  | .hbm, ⟨7, _⟩ => ⟨S64x50000, .f32⟩
  | .hbm, ⟨8, _⟩ => ⟨S1024x50000, .f32⟩
  | .hbm, ⟨9, _⟩ => ⟨S1024x50000, .f32⟩
  | .hbm, ⟨10, _⟩ => ⟨S_, .f32⟩
  | .hbm, ⟨11, _⟩ => ⟨S1024x50000, .f32⟩
  | .hbm, ⟨12, _⟩ => ⟨S1024x50000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  transposes_S50000x64_S64x50000_1_0 : S50000x64.Transposes [1, 0] S64x50000
  bcast_S_S1024x50000 : S_.BroadcastsInDim S1024x50000 (![] : Fin 0 → Fin S1024x50000.rank)
  dot_S1024x64_S64x50000_S1024x50000_1_0_0_1_n_n_wf : DotDims.WF S1024x64 S64x50000 S1024x50000 [1] [0] [0] [1] [] []

variable [Facts₀]

def dot_S1024x64_S64x50000_S1024x50000_1_0_0_1_n_n : DotDims S1024x64 S64x50000 S1024x50000 where
  lhsContracting := [1]
  rhsContracting := [0]
  lhsNonContracting := [0]
  rhsNonContracting := [1]
  lhsBatch := []
  rhsBatch := []
  wf := dot_S1024x64_S64x50000_S1024x50000_1_0_0_1_n_n_wf

class Facts : Prop extends Facts₀ where

variable [Facts]
-- ==== Proof.StepBits.lean ====
/-
  One grid step of the factorization-machine kernel, as a separation-logic triple, for any float instance.

  The body reads the whole user block `u` (1024 × 64) and the whole movie block `v` (1536 × 64) from their
  staging buffers, reads the output buffer (a dead load) and then overwrites ALL of it with the tile

      tile u v = ½ · ( (u ·ᵀ v) ∘ (u ·ᵀ v)  −  (u ∘ u) ·ᵀ (v ∘ v) ),        a 1024 × 1536 block,

  where `·ᵀ` contracts the feature axis (length 64) of both operands and `∘` is the entrywise product. The two
  input buffers are left as found. Nothing is assumed about what the buffers hold: rows of the movie block past the
  end of the movie table hold unnamed words, and the tile's corresponding columns are then unnamed too.
-/
import proofs.«125516_j20040317403344_2_alg».proof.Proof.Gen.Kernel.Frame
import proofs.«125516_j20040317403344_2_alg».proof.Proof.Gen.Kernel.Skeleton
import Idealize.ShloMosaic.Lib.Pipeline.Value

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three rectangles the body touches: each is its whole buffer (offset zero, full extent). -/
abbrev rectU : Rect S1024x64 := Rect.unit (s := S1024x64) ![0, 0] S1024x64.size inb_S1024x64_S1024x64_0_0
abbrev rectV : Rect S1536x64 := Rect.unit (s := S1536x64) ![0, 0] S1536x64.size inb_S1536x64_S1536x64_0_0
abbrev rectO : Rect S1024x1536 := Rect.unit (s := S1024x1536) ![0, 0] S1024x1536.size inb_S1024x1536_S1024x1536_0_0

/-- The offset `(0, 0)` is the zero offset. -/
theorem origin : (![0, 0] : Fin 2 → Nat) = fun _ => 0 := funext fun a => by fin_cases a <;> rfl

/-- What the one store leaves in the output buffer, as the contents a list of writes leaves. -/
def stored (u : Vec F S1024x64 .f32) (v : Vec F S1536x64 .f32) : Vec F S1024x1536 .f32 :=
  View.canon [⟨rectO, k0_pay1 (View.ld u rectU) (View.ld v rectV)⟩]

/-- The store is of the whole buffer and the loads are of whole buffers: the buffer ends holding the tile itself. -/
theorem stored_eq (u : Vec F S1024x64 .f32) (v : Vec F S1536x64 .f32) : stored u v = k0_pay1 u v := by
  unfold stored
  rw [View.canon_unit_zero origin, View.ld_unit_zero origin, View.ld_unit_zero origin]

/-- The one store covers every index of the output buffer. -/
theorem stored_covers (p : Vec F S1024x1536 .f32) (y : S1024x1536.Idx) :
    ∃ pc ∈ ([⟨rectO, p⟩] : List (View.Piece (Elt F) S1024x1536 .f32)), y ∈ pc.1.set :=
  View.cover_of_tiled [⟨rectO, p⟩] S1024x1536.size (by rfl) y

set_option maxHeartbeats 1000000 in
/-- THE STEP. On whole staging buffers holding `u`, `v` and anything, the body runs without fault to a state
    where the first two hold `u` and `v` still and the third holds `tile u v`. -/
theorem runs (c : Dev nD) (E : Set ℕ) (i : grid0.Coords)
    (arg1 : Memref sig .tc .vmem S1024x64 .f32) (harg1 : arg1.IsWhole)
    (arg2 : Memref sig .tc .vmem S1536x64 .f32) (harg2 : arg2.IsWhole)
    (arg3 : Memref sig .tc .vmem S1024x1536 .f32) (harg3 : arg3.IsWhole)
    (u : Vec F S1024x64 .f32) (v : Vec F S1536x64 .f32) (K : PUnit → sProp 𝕄) :
    iprop(owns (c : Thread nD τ) arg1 fullShare u ∗ owns (c : Thread nD τ) arg2 fullShare v ∗ (∃ d, owns (c : Thread nD τ) arg3 fullShare d)
        ∗ (iprop(owns (c : Thread nD τ) arg1 fullShare u ∗ owns (c : Thread nD τ) arg2 fullShare v ∗ owns (c : Thread nD τ) arg3 fullShare (k0_pay1 u v)) -∗ K ⟨⟩))
      ⊢ wp frame (wpE (defs₀ (F := F)) Variants.none c none) E (cc0__fm_kernel i arg1 harg1 arg2 harg2 arg3 harg3) K := by
  rw [← stored_eq u v]
  simp only [cc0__fm_kernel_eq_skeleton]; unfold cc0__fm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

end Cert.Kernel.Step

end
-- ==== Proof.WholeBits.lean ====
/-
  The kernel as printed, at any float instance: it runs to the end, faults nowhere, and leaves both embedding
  tables as it found them.

  The grid steps over the movie axis, 1536 rows at a time; the last of the 33 steps has only 848 rows inside the
  50000-row table, so the rest of its movie buffer holds words nothing names, and the matrix products turn them into
  result columns nothing names either. Those columns are never written back, and this claim says nothing about the
  result array at all — so the result buffer is carried through the run at contents left unnamed: the step's triple
  needs no knowledge of what its buffers hold, and the two input buffers come back exactly as they were handed in
  (the movie buffer: its block on the rows inside the table, anything elsewhere). The arrays themselves are only
  ever read by the fetches.
-/
import proofs.«125516_j20040317403344_2_alg».proof.Proof.StepBits
import proofs.«125516_j20040317403344_2_alg».proof.Proof.Gen.Kernel.Frame
import proofs.«125516_j20040317403344_2_alg».proof.Proof.Gen.Kernel.Points
import proofs.«125516_j20040317403344_2_alg».proof.Proof.Gen.Kernel.Launch

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window is not described: nothing claimed here reads what the kernel leaves in it. -/
def unread : Fin 3 → Bool := fun w => w.val == 2

/-- After the body at step `t`: the user buffer holds the user block; the movie buffer its block on the rows inside
    the table (a filler stands elsewhere); the result buffer is left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_users (c : Dev nD) (t : Fin cfg0.N) : (dats m 0 c).after 0 t = iblk m c 0 t := by dsimp only [dats]
theorem after_movies (c : Dev nD) (t : Fin cfg0.N) :
    (dats m 0 c).after 1 t = win0_1.fill (grid0.coords t) (fun _ => Scalar.ofBits .f32 0#32) (iblk m c 1 t) := by dsimp only [dats]

/-- The user buffer holds the user block at every step (fetched once, never overwritten). -/
theorem before_users (c : Dev nD) (t : Fin cfg0.N) (d) : (dats m 0 c).before 0 t d = iblk m c 0 t :=
  before0_0_of m (dats m 0 c) (A_eq m c 0) (after_users m c) t d

/-- The movie buffer is fetched at every step: its block on the rows inside the table, `d` elsewhere. -/
theorem before_movies (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ X, owns (c : Thread nD τ) (st0_2 t) fullShare X))

/-- The body at any step: the step's triple at whatever the buffers hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_users, before_movies]
  rw [show (dats m 0 c).Φ t.succ = (dats m 0 c).Φ t.castSucc from rfl,
    show (dats m 0 c).owesAt () t.succ = (dats m 0 c).owesAt () t.castSucc from rfl,
    after_users, after_movies, Window.cut_fill]
  iintro ⟨HΦ, Ho, ⟨%d0, H0⟩, ⟨%d1, H1⟩, ⟨%d2, H2⟩⟩
  iapply (Step.runs (F := F) c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists _; iexact H2

/-- The library's body obligation (the form for windows whose blocks may overhang), the result window unread. -/
theorem body_obligation (c : Dev nD) : BodyObligationLoose (dats (F := F) m 0 c) (defs₀ (F := F)) Variants.none () Set.univ unread := fun t => by
  rw [bigSep_W0, bigSep_W0]
  exact sound_body m c t

set_option backward.isDefEq.respectTransparency.types false in
/-- From any memory with zero counters every weakly fair execution terminates without fault; each input array ends at
    contents it may hold after the run — its entry contents —, nothing being said of the result array. -/
theorem run_main : θ_run defs (onTc (τ := τ) (main (F := F))) (s₀ m ρ) (Pipeline.RDat.FramePost (cfgs 0) (fun c => (dats m 0 c).toRForget unread) (V m)) :=
  Pipeline.RDat.θ_run_frame cfgs (0 : Fin 1) launch0 defs₀ Variants.none (fun c => (dats m 0 c).toRForget unread) m ρ main
    (hbody := fun c => (body_obligation m c).toRForget) (hshare := fun c => ((dats m 0 c).toRForget unread).share_full fun _ => rfl)
    (howed := fun _ _ => rfl) (V := V m) (hmain := hmain m Variants.none) (hA := A_eq m) (hΦ := fun _ _ => rfl)

/-- The argument arrays end unchanged: an input array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(Eq.mp (congrFun (((dats m 0 c).toRForget unread).ArrAt_in 0 rfl _) _) ((h c).1 0)).trans ((A_eq m c 0).trans (V_main_arg0 m c)),
       (Eq.mp (congrFun (((dats m 0 c).toRForget unread).ArrAt_in 1 rfl _) _) ((h c).1 1)).trans ((A_eq m c 1).trans (V_main_arg1 m c))⟩)
    (run_main m ρ)

end Cert.Kernel.Whole

end
-- ==== Proof.StepIdeal.lean ====
/-
  One grid step of the factorization-machine kernel, as a separation-logic triple, for any float instance.

  The body reads the whole user block `u` (1024 × 64) and the whole movie block `v` (1536 × 64) from their
  staging buffers, reads the output buffer (a dead load) and then overwrites ALL of it with the tile

      tile u v = ½ · ( (u ·ᵀ v) ∘ (u ·ᵀ v)  −  (u ∘ u) ·ᵀ (v ∘ v) ),        a 1024 × 1536 block,

  where `·ᵀ` contracts the feature axis (length 64) of both operands and `∘` is the entrywise product. The two
  input buffers are left as found. Nothing is assumed about what the buffers hold: rows of the movie block past the
  end of the movie table hold unnamed words, and the tile's corresponding columns are then unnamed too.
-/
import proofs.«125516_j20040317403344_2_alg».proof.Proof.Gen.KernelIdeal.Frame
import proofs.«125516_j20040317403344_2_alg».proof.Proof.Gen.KernelIdeal.Skeleton
import Idealize.ShloMosaic.Lib.Pipeline.Value

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three rectangles the body touches: each is its whole buffer (offset zero, full extent). -/
abbrev rectU : Rect S1024x64 := Rect.unit (s := S1024x64) ![0, 0] S1024x64.size inb_S1024x64_S1024x64_0_0
abbrev rectV : Rect S1536x64 := Rect.unit (s := S1536x64) ![0, 0] S1536x64.size inb_S1536x64_S1536x64_0_0
abbrev rectO : Rect S1024x1536 := Rect.unit (s := S1024x1536) ![0, 0] S1024x1536.size inb_S1024x1536_S1024x1536_0_0

/-- The offset `(0, 0)` is the zero offset. -/
theorem origin : (![0, 0] : Fin 2 → Nat) = fun _ => 0 := funext fun a => by fin_cases a <;> rfl

/-- What the one store leaves in the output buffer, as the contents a list of writes leaves. -/
def stored (u : Vec F S1024x64 .f32) (v : Vec F S1536x64 .f32) : Vec F S1024x1536 .f32 :=
  View.canon [⟨rectO, k0_pay1 (View.ld u rectU) (View.ld v rectV)⟩]

/-- The store is of the whole buffer and the loads are of whole buffers: the buffer ends holding the tile itself. -/
theorem stored_eq (u : Vec F S1024x64 .f32) (v : Vec F S1536x64 .f32) : stored u v = k0_pay1 u v := by
  unfold stored
  rw [View.canon_unit_zero origin, View.ld_unit_zero origin, View.ld_unit_zero origin]

/-- The one store covers every index of the output buffer. -/
theorem stored_covers (p : Vec F S1024x1536 .f32) (y : S1024x1536.Idx) :
    ∃ pc ∈ ([⟨rectO, p⟩] : List (View.Piece (Elt F) S1024x1536 .f32)), y ∈ pc.1.set :=
  View.cover_of_tiled [⟨rectO, p⟩] S1024x1536.size (by rfl) y

set_option maxHeartbeats 1000000 in
/-- THE STEP. On whole staging buffers holding `u`, `v` and anything, the body runs without fault to a state
    where the first two hold `u` and `v` still and the third holds `tile u v`. -/
theorem runs (c : Dev nD) (E : Set ℕ) (i : grid0.Coords)
    (arg1 : Memref sig .tc .vmem S1024x64 .f32) (harg1 : arg1.IsWhole)
    (arg2 : Memref sig .tc .vmem S1536x64 .f32) (harg2 : arg2.IsWhole)
    (arg3 : Memref sig .tc .vmem S1024x1536 .f32) (harg3 : arg3.IsWhole)
    (u : Vec F S1024x64 .f32) (v : Vec F S1536x64 .f32) (K : PUnit → sProp 𝕄) :
    iprop(owns (c : Thread nD τ) arg1 fullShare u ∗ owns (c : Thread nD τ) arg2 fullShare v ∗ (∃ d, owns (c : Thread nD τ) arg3 fullShare d)
        ∗ (iprop(owns (c : Thread nD τ) arg1 fullShare u ∗ owns (c : Thread nD τ) arg2 fullShare v ∗ owns (c : Thread nD τ) arg3 fullShare (k0_pay1 u v)) -∗ K ⟨⟩))
      ⊢ wp frame (wpE (defs₀ (F := F)) Variants.none c none) E (cc0__fm_kernel i arg1 harg1 arg2 harg2 arg3 harg3) K := by
  rw [← stored_eq u v]
  simp only [cc0__fm_kernel_eq_skeleton]; unfold cc0__fm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

end Cert.KernelIdeal.Step

end
-- ==== Proof.Interaction.lean ====
/-
  The factorization-machine pairwise-interaction table, as one function of the two embedding tables, over the
  extended reals.

  For a user row `u` and a movie row `v` (each of 64 features) the interaction is

      entry u v = ½ · ( (∑ₖ uₖ·vₖ)·(∑ₖ uₖ·vₖ) − ∑ₖ (uₖ·uₖ)·(vₖ·vₖ) ),

  the classical identity "half of (square of the sum minus sum of the squares)" for ∑_{k<l} (uₖvₖ)(uₗvₗ), kept here
  in exactly this arrangement: both programs compute it so, and on the extended reals no rearrangement (which
  would need finiteness) is called for. The table has one entry per (user, movie) pair.
-/
import Idealize.ShloMosaic.PureOps.Ideal
import Idealize.ShloMosaic.Lib.ValueIdx

noncomputable section

namespace Cert.Interaction

open Idealize.ShloMosaic Idealize.ShloMosaic.ValueIdx

/-- The factor one half: the binary32 word `0x3F000000` read as an extended real. -/
def half : EReal := Ideal.ofBits .f32 0x3F000000#32

/-- The interaction of one user row with one movie row. -/
def entry (u v : Fin 64 → EReal) : EReal :=
  half * ((∑ k, u k * v k) * (∑ k, u k * v k) - ∑ k, (u k * u k) * (v k * v k))

/-- The whole table: entry `(b, n)` is the interaction of user row `b` with movie row `n`. -/
def table (users : (⟨2, ![1024, 64]⟩ : Shape).Idx → EReal) (movies : (⟨2, ![50000, 64]⟩ : Shape).Idx → EReal) :
    (⟨2, ![1024, 50000]⟩ : Shape).Idx → EReal :=
  fun i => entry (fun k => users (ix2 (i 0) k)) (fun k => movies (ix2 (i 1) k))

theorem table_apply (users : (⟨2, ![1024, 64]⟩ : Shape).Idx → EReal) (movies : (⟨2, ![50000, 64]⟩ : Shape).Idx → EReal)
    (b : Fin 1024) (n : Fin 50000) :
    table users movies (ix2 b n) = entry (fun k => users (ix2 b k)) (fun k => movies (ix2 n k)) := rfl

/-- The interaction depends on the two rows only through their entries. -/
theorem entry_congr {u u' v v' : Fin 64 → EReal} (hu : ∀ k, u k = u' k) (hv : ∀ k, v k = v' k) : entry u v = entry u' v' := by
  rw [show u = u' from funext hu, show v = v' from funext hv]

end Cert.Interaction

end
-- ==== Proof.TileIdeal.lean ====
/-
  One 1024 × 1536 tile of the kernel, read at an entry, over the extended reals.

  There a change of float format is the identity and a matrix product into a zero accumulator is the plain sum of
  products over the 64 features, so entry `(b, j)` of the tile computed from a user block `u` and a movie block `v`
  is the interaction of row `b` of `u` with row `j` of `v` — and of nothing else: a column of the tile reads
  exactly one row of the movie block.
-/
import proofs.«125516_j20040317403344_2_alg».proof.Proof.Gen.KernelIdeal.Skeleton
import proofs.«125516_j20040317403344_2_alg».proof.Proof.Interaction
import Idealize.ShloMosaic.Lib.ValueIdx
import Idealize.ShloMosaic.PureOps.Ideal.Laws

noncomputable section

namespace Cert.KernelIdeal.Tile

open Cert.KernelIdeal Cert.KernelIdeal.Gen
open Idealize.ShloMosaic Idealize.ShloMosaic.ValueIdx
open Cert.Interaction

local notation "D" => dot_S1024x64_S1536x64_S1024x1536_1_1_0_0_n_n

/-- The product's left operand is read at the output's row … -/
theorem left_row (i : S1024x1536.Idx) (q : (D).contr.Idx) : ((D).lhsIdx i q 0).val = (i 0).val := by
  unfold DotDims.lhsIdx
  rw [dif_neg (show ¬(0 : Fin S1024x64.rank) ∈ (D).lhsBatch by decide), dif_pos (show (0 : Fin S1024x64.rank) ∈ (D).lhsNonContracting by decide)]
  rfl
/-- … and the contracted feature; -/
theorem left_feature (i : S1024x1536.Idx) (q : (D).contr.Idx) : ((D).lhsIdx i q 1).val = (q ⟨0, by decide⟩).val :=
  (D).lhsIdx_val_of_single rfl i q
/-- the right operand at the row named by the output's COLUMN … -/
theorem right_row (i : S1024x1536.Idx) (q : (D).contr.Idx) : ((D).rhsIdx i q 0).val = (i 1).val := by
  unfold DotDims.rhsIdx
  rw [dif_neg (show ¬(0 : Fin S1536x64.rank) ∈ (D).rhsBatch by decide), dif_pos (show (0 : Fin S1536x64.rank) ∈ (D).rhsNonContracting by decide)]
  rfl
/-- … and the contracted feature. -/
theorem right_feature (i : S1024x1536.Idx) (q : (D).contr.Idx) : ((D).rhsIdx i q 1).val = (q ⟨0, by decide⟩).val :=
  (D).rhsIdx_val_of_single rfl i q

/-- The product contracting the feature axis of both operands, into a zero accumulator, at entry `(b, j)`: the sum
    over the features of row `b` of the left times row `j` of the right. -/
theorem product_apply {φ₁ φ₂ : FTy} (l : FVec Ideal S1024x64 φ₁) (r : FVec Ideal S1536x64 φ₂) (b : Fin 1024) (j : Fin 1536) :
    FloatOps.matmul D none l r (constant S1024x1536 .f32 0x00000000#32) (ix2 b j) = ∑ k : Fin 64, l (ix2 b k) * r (ix2 j k) := by
  rw [Ideal.matmul_constant_zero_apply, ← Equiv.sum_comp (ValueIdx.contrEquiv1 D 64 rfl rfl).symm]
  refine Finset.sum_congr rfl fun k _ => ?_
  have hk := ValueIdx.contrEquiv1_symm_val D 64 rfl rfl k
  have el : (D).lhsIdx (ix2 b j) ((ValueIdx.contrEquiv1 D 64 rfl rfl).symm k) = ix2 b k := funext fun a => Fin.ext (by
    match a with
    | ⟨0, _⟩ => exact left_row _ _
    | ⟨1, _⟩ => exact (left_feature _ _).trans hk)
  have er : (D).rhsIdx (ix2 b j) ((ValueIdx.contrEquiv1 D 64 rfl rfl).symm k) = ix2 j k := funext fun a => Fin.ext (by
    match a with
    | ⟨0, _⟩ => exact right_row _ _
    | ⟨1, _⟩ => exact (right_feature _ _).trans hk)
  rw [el, er]

/-- THE TILE AT AN ENTRY: the interaction of the user block's row `b` with the movie block's row `j`. -/
theorem tile_apply (u : Vec Ideal S1024x64 .f32) (v : Vec Ideal S1536x64 .f32) (b : Fin 1024) (j : Fin 1536) :
    k0_pay1 (F := Ideal) u v (ix2 b j) = entry (fun k => u (ix2 b k)) (fun k => v (ix2 j k)) := by
  unfold k0_pay1
  refine (congrArg₂ (fun s t : EReal => Ideal.ofBits .f32 0x3F000000#32 * (s * s - t))
    (product_apply (truncf .bf16 u bitsLt_bf16_f32) (truncf .bf16 v bitsLt_bf16_f32) b j)
    (product_apply (truncf .bf16 (mulf u u) bitsLt_bf16_f32) (truncf .bf16 (mulf v v) bitsLt_bf16_f32) b j)).trans ?_
  rfl

/-- A column of the tile reads one row of the movie block: two movie blocks that agree on row `j` give the same
    entries in column `j`. -/
theorem tile_column (u : Vec Ideal S1024x64 .f32) (v v' : Vec Ideal S1536x64 .f32) (b : Fin 1024) (j : Fin 1536)
    (h : ∀ k : Fin 64, v (ix2 j k) = v' (ix2 j k)) :
    k0_pay1 (F := Ideal) u v (ix2 b j) = k0_pay1 (F := Ideal) u v' (ix2 b j) := by
  rw [tile_apply, tile_apply]
  exact entry_congr (fun _ => rfl) h

end Cert.KernelIdeal.Tile

end
-- ==== Proof.WholeIdeal.lean ====
/-
  The idealized kernel as a whole: every grid step writes its tile of the interaction table, and the 33 tiles
  together are the table.

  The grid runs over the movie axis in steps of 1536 rows: step `t` reads movie rows 1536·t … and writes result
  columns 1536·t …, all 1024 user rows each time (the user block is the whole user table, fetched once). The table
  has 50000 = 32·1536 + 848 movie rows, so at the last step only 848 rows of the movie block lie inside the table
  and only 848 columns of the tile are written back; the other rows of the staging buffer hold words nothing names,
  and so do the tile's other columns, which never leave the staging buffer. Because column `j` of a tile reads row
  `j` of the movie block and no other, the columns that ARE written back depend only on rows inside the table:
  step `t` writes block `t` of the interaction table of the two argument arrays. The blocks cover every column
  (column `n` lies in block `n / 1536`), hence the result array ends holding the table, and the argument arrays are
  only read.
-/
import proofs.«125516_j20040317403344_2_alg».proof.Proof.StepIdeal
import proofs.«125516_j20040317403344_2_alg».proof.Proof.TileIdeal
import proofs.«125516_j20040317403344_2_alg».proof.Proof.Gen.KernelIdeal.Frame
import proofs.«125516_j20040317403344_2_alg».proof.Proof.Gen.KernelIdeal.Points
import proofs.«125516_j20040317403344_2_alg».proof.Proof.Gen.KernelIdeal.Launch
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The table, and where each step's blocks lie -/

/-- The interaction table of the two argument arrays as the kernel is launched with them. -/
def table (c : Dev nD) : Buf (Elt Ideal) ((c : Thread nD τ).loc main_v0) :=
  Cert.Interaction.table (m ((c : Thread nD τ).loc main_arg0)) (m ((c : Thread nD τ).loc main_arg1))

/-- Where the blocks of step `t` lie, decided over the 33 steps: the user block is always block (0, 0); the movie
    block is row-block `t`; the result block is column-block `t` of the one row-block; the movie block's rows inside
    the table are as many as the result block's columns inside it, and those columns end at `min (1536·(t+1)) 50000`;
    on the other axes nothing is cut. -/
theorem where_blocks : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (0 : Fin 2) = win0_2.xsize (grid0.coords t) (1 : Fin 2)
    ∧ win0_1.xsize (grid0.coords t) (1 : Fin 2) = 64
    ∧ win0_2.xsize (grid0.coords t) (0 : Fin 2) = 1024
    ∧ t.val * 1536 + win0_2.xsize (grid0.coords t) (1 : Fin 2) = min ((t.val + 1) * 1536) 50000 :=
  (by decide +kernel : ∀ t : Fin grid0.N, _)

/-- Every column-block of the table is some step's. -/
theorem block_of_column : ∀ q : Fin 33, ∃ t : Fin cfg0.N, t.val = q.val :=
  fun q => ⟨⟨q.val, by rw [show cfg0.N = 33 from N_0]; exact q.isLt⟩, rfl⟩

/-! ## The proof data -/

/-- After the body at step `t`: the user buffer holds the user block; the movie buffer its block on the rows inside
    the table; the result buffer block `t` of the table on the columns inside it. Past the table's end a filler (zero)
    stands for words nothing reads. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (table m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_users (c : Dev nD) (t : Fin cfg0.N) : (dats m 0 c).after 0 t = iblk m c 0 t := by dsimp only [dats]
theorem after_movies (c : Dev nD) (t : Fin cfg0.N) :
    (dats m 0 c).after 1 t = win0_1.fill (grid0.coords t) (fun _ => (0 : EReal)) (iblk m c 1 t) := by dsimp only [dats]
theorem after_result (c : Dev nD) (t : Fin cfg0.N) :
    (dats m 0 c).after 2 t = win0_2.fill (grid0.coords t) (fun _ => (0 : EReal)) ((win0_2.blk t).view.read (Elt Ideal) (table m c)) := by
  dsimp only [dats]

/-- The user buffer holds the user block at every step (fetched once, never overwritten). -/
theorem before_users (c : Dev nD) (t : Fin cfg0.N) (d) : (dats m 0 c).before 0 t d = iblk m c 0 t :=
  before0_0_of m (dats m 0 c) (A_eq m c 0) (after_users m c) t d

/-- The movie buffer is fetched at every step: it holds the block on the rows inside the table and, elsewhere,
    whatever `d` the fetch left. -/
theorem before_movies (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-! ## A step's tile, on the columns inside the table -/

/-- THE KEY FACT. Whatever the movie buffer holds past the table's end (`d`), the columns of the tile that the
    write-back moves are block `t` of the interaction table: column `j` inside the table reads movie row
    `1536·t + j`, which is inside the table too, and the user block is the whole user table. -/
theorem tile_cut (c : Dev nD) (t : Fin cfg0.N) (d : S1536x64.Idx → EReal) :
    win0_2.cut (grid0.coords t) (k0_pay1 (F := Ideal) (iblk m c 0 t) (win0_1.fill (grid0.coords t) d (iblk m c 1 t)))
      = (win0_2.blk t).view.read (Elt Ideal) (table m c) := by
  obtain ⟨u0, u1, v0, v1, o0, o1, hrows, hfeat, hall, hend⟩ := where_blocks t
  funext y
  have hy0 : (y 0).val < win0_2.xsize (grid0.coords t) (0 : Fin 2) := (y 0).isLt
  have hy1 : (y 1).val < win0_2.xsize (grid0.coords t) (1 : Fin 2) := (y 1).isLt
  have hle : win0_2.xsize (grid0.coords t) (1 : Fin 2) ≤ 1536 := win0_2.xsize_le (grid0.coords t) (1 : Fin 2)
  have hb : (y 0).val < 1024 := by omega
  have hj : (y 1).val < 1536 := by omega
  have hn : t.val * 1536 + (y 1).val < 50000 := by omega
  -- the entry of the tile, and the entry of the table it is written to
  have hsrc : win0_2.xinj (grid0.coords t) y = ix2 (⟨(y 0).val, hb⟩ : Fin 1024) (⟨(y 1).val, hj⟩ : Fin 1536) :=
    funext fun a => Fin.ext (by
      match a with
      | ⟨0, _⟩ => rfl
      | ⟨1, _⟩ => rfl)
  have hdst : (win0_2.blk t).view.emb y = ix2 (⟨(y 0).val, hb⟩ : Fin 1024) (⟨t.val * 1536 + (y 1).val, hn⟩ : Fin 50000) :=
    funext fun a => Fin.ext (by
      match a with
      | ⟨0, _⟩ => show win0_2.index t (0 : Fin 2) * 1024 + 1 * (y 0).val = (y 0).val; omega
      | ⟨1, _⟩ => show win0_2.index t (1 : Fin 2) * 1536 + 1 * (y 1).val = t.val * 1536 + (y 1).val; omega)
  show k0_pay1 (F := Ideal) (iblk m c 0 t) (win0_1.fill (grid0.coords t) d (iblk m c 1 t)) (win0_2.xinj (grid0.coords t) y)
    = table m c ((win0_2.blk t).view.emb y)
  rw [hsrc, hdst, Tile.tile_apply]
  unfold table
  rw [Cert.Interaction.table_apply]
  refine Cert.Interaction.entry_congr (fun k => ?_) (fun k => ?_)
  · -- row `b` of the user block is row `b` of the user table
    show V m c main_arg0 (((cfg0.win 0).blk t).view.emb (ix2 (⟨(y 0).val, hb⟩ : Fin 1024) k)) = _
    refine congrArg _ (funext fun a => Fin.ext ?_)
    match a with
    | ⟨0, _⟩ => show win0_0.index t (0 : Fin 2) * 1024 + 1 * (y 0).val = (y 0).val; omega
    | ⟨1, _⟩ => show win0_0.index t (1 : Fin 2) * 64 + 1 * k.val = k.val; omega
  · -- row `j` of the movie buffer, inside the table, is row `1536·t + j` of the movie table
    have hmoved : win0_1.moved (grid0.coords t) (ix2 (⟨(y 1).val, hj⟩ : Fin 1536) k) = true :=
      (win0_1.moved_iff _ _).mpr fun a => by
        match a with
        | ⟨0, _⟩ => show (y 1).val < win0_1.xsize (grid0.coords t) (0 : Fin 2); omega
        | ⟨1, _⟩ => show k.val < win0_1.xsize (grid0.coords t) (1 : Fin 2); have := k.isLt; omega
    unfold Window.fill
    rw [dif_pos hmoved]
    show V m c main_arg1 (((cfg0.win 1).blk t).view.emb _) = _
    refine congrArg _ (funext fun a => Fin.ext ?_)
    match a with
    | ⟨0, _⟩ => show win0_1.index t (0 : Fin 2) * 1536 + 1 * (y 1).val = t.val * 1536 + (y 1).val; omega
    | ⟨1, _⟩ => show win0_1.index t (1 : Fin 2) * 64 + 1 * k.val = k.val; omega

/-! ## The body obligation, at a generic step -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the user buffer named whole, the two cut windows named on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

/-- The body at any step: the step's triple at the buffers' contents, then each cut window restated on its moved part. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_users, before_movies]
  rw [show (dats m 0 c).Φ t.succ = (dats m 0 c).Φ t.castSucc from rfl,
    show (dats m 0 c).owesAt () t.succ = (dats m 0 c).owesAt () t.castSucc from rfl,
    after_users, after_movies, after_result, Window.cut_fill, Window.cut_fill]
  iintro ⟨HΦ, Ho, ⟨%d0, H0⟩, ⟨%d1, H1⟩, ⟨%d2, H2⟩⟩
  iapply (Step.runs (F := Ideal) c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists k0_pay1 (F := Ideal) (iblk m c 0 t) (win0_1.fill (grid0.coords t) d1 (iblk m c 1 t))
  rw [← tile_cut m c t d1, Window.fill_cut]
  iexact H2

/-- The library's body obligation (the form for windows whose blocks may overhang), at every step. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- From any memory with zero counters every weakly fair execution terminates without fault, every array of the
    pipeline ending at what the write-backs computed from the proof data leave. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-! ## The result array -/

/-- Step `t` writes back block `t` of the table. -/
theorem flushed_eq (c : Dev nD) (t : Fin cfg0.N) :
    (dats m 0 c).flushed 2 t = ((cfg0.win 2).blk t).view.read (Elt Ideal) (table m c) := by
  show (cfg0.win 2).cut (grid0.coords t) ((dats m 0 c).after 2 t) = _
  rw [after_result]
  exact Window.cut_fill _ _ _ _

/-- An entry of the result array is in step `t`'s block iff each coordinate is in the block's part inside the array. -/
theorem mem_block (t : Fin cfg0.N) (i : S1024x50000.Idx) :
    i ∈ ((cfg0.win 2).blk t).view.set ↔ ∀ a : Fin 2, win0_2.index t a * S1024x1536.size a ≤ (i a).val
      ∧ (i a).val < win0_2.index t a * S1024x1536.size a + win0_2.xsize (grid0.coords t) a := by
  show i ∈ ((View.whole main_v0).slice (win0_2.rect t)).set ↔ _
  rw [View.set_slice_whole, Rect.mem_set_unit]
  exact Iff.rfl

/-- Every entry is in some step's block: column `n` is in block `n / 1536`. -/
theorem covered (i : S1024x50000.Idx) : ∃ t : Fin cfg0.N, (cfg0.win 2).flush t = true ∧ i ∈ ((cfg0.win 2).blk t).view.set := by
  have hi0 : (i 0).val < 1024 := (i 0).isLt
  have hi1 : (i 1).val < 50000 := (i 1).isLt
  obtain ⟨t, ht⟩ := block_of_column ⟨(i 1).val / 1536, by omega⟩
  have ht' : t.val = (i 1).val / 1536 := ht
  obtain ⟨u0, u1, v0, v1, o0, o1, hrows, hfeat, hall, hend⟩ := where_blocks t
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + win0_2.xsize (grid0.coords t) (0 : Fin 2)
    omega
  | ⟨1, _⟩ =>
    show win0_2.index t (1 : Fin 2) * 1536 ≤ (i 1).val ∧ (i 1).val < win0_2.index t (1 : Fin 2) * 1536 + win0_2.xsize (grid0.coords t) (1 : Fin 2)
    omega

/-- The result array ends holding the interaction table. -/
theorem final_result (c : Dev nD) : (dats m 0 c).arrAt 2 cfg0.N = table m c :=
  (dats m 0 c).arrAt_eq_of_cover 2 (table m c) (fun t _ => flushed_eq m c t) (covered)

/-- THE RUN, READ: the result array ends at the interaction table of the argument arrays, which end unchanged. -/
theorem run : θ_run defs (onTc (τ := τ) (main (F := Ideal))) ⟨m, fun _ => 0, ρ⟩ fun r => ∀ c : Dev nD,
      r.2.mem ((c.tc : Thread nD τ).loc main_v0) = table m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).1 2).trans (final_result m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Whole

end
-- ==== Proof.RefTable.lean ====
/-
  The reference computes the interaction table.

  Read one operation at a time at an entry `(b, n)`: the transposes only rename indices, so the first product is
  ∑ₖ users(b,k)·movies(n,k) and the second ∑ₖ (users(b,k)·users(b,k))·(movies(n,k)·movies(n,k)); the first is
  multiplied by itself, the second subtracted, and the difference multiplied by the constant ½ — the table's entry,
  in the very arrangement of its definition.
-/
import proofs.«125516_j20040317403344_2_alg».proof.Proof.Gen.ReferenceIdeal.Read
import proofs.«125516_j20040317403344_2_alg».proof.Proof.Interaction

noncomputable section

namespace Cert.ReferenceIdeal.RefTable

open Cert.ReferenceIdeal Cert.ReferenceIdeal.Gen Cert.ReferenceIdeal.Read
open Idealize.ShloMosaic Idealize.ShloMosaic.ValueIdx

/-- The reference's result, as the last operation's value, is the interaction table of its two arguments. -/
theorem result_is_table (users : (⟨S1024x64, .f32⟩ : BufTy).Contents (Elt Ideal)) (movies : (⟨S50000x64, .f32⟩ : BufTy).Contents (Elt Ideal)) :
    val_main_v9 (F := Ideal) users movies = Cert.Interaction.table users movies := by
  funext i
  -- the index functions of the two products, in coordinates: user row `i 0`, movie row `i 1`, feature `k`
  have l1 : ∀ k : Fin 64, lidx_main_v1 i k = ix2 (i 0) k := fun k => funext fun a => Fin.ext (by
    match a with
    | ⟨0, _⟩ => rfl
    | ⟨1, _⟩ => rfl)
  have r1 : ∀ k : Fin 64, idx_main_v0 (ridx_main_v1 i k) = ix2 (i 1) k := fun k => funext fun a => Fin.ext (by
    match a with
    | ⟨0, _⟩ => rfl
    | ⟨1, _⟩ => rfl)
  have l6 : ∀ k : Fin 64, lidx_main_v6 i k = ix2 (i 0) k := fun k => funext fun a => Fin.ext (by
    match a with
    | ⟨0, _⟩ => rfl
    | ⟨1, _⟩ => rfl)
  have r6 : ∀ k : Fin 64, idx_main_v5 (ridx_main_v6 i k) = ix2 (i 1) k := fun k => funext fun a => Fin.ext (by
    match a with
    | ⟨0, _⟩ => rfl
    | ⟨1, _⟩ => rfl)
  rw [val_main_v9_apply, val_main_v8_apply, val_main_cst_apply, val_main_v7_apply, val_main_v2_apply, val_main_v1_apply,
    val_main_v6_apply]
  simp only [val_main_v0_apply, val_main_v3_apply, val_main_v5_apply, val_main_v4_apply, l1, r1, l6, r6]
  rfl

end Cert.ReferenceIdeal.RefTable

end
-- ==== Proof.lean ====
/-
  A factorization-machine interaction kernel against its plain reference, over the extended reals.

  Both programs compute, for every user row u and movie row v (64 features each),

      ½ · ( (∑ₖ uₖ·vₖ)·(∑ₖ uₖ·vₖ) − ∑ₖ (uₖ·uₖ)·(vₖ·vₖ) ).

  The kernel does so tile by tile: 33 grid steps over the movie axis, 1536 movie rows a step, each step two matrix
  products (of the blocks, and of their entrywise squares) contracting the feature axis, then the square, the
  difference and the factor ½. The reference does it on the whole tables, transposing the movie table first. Read
  over the extended reals a change of float format is the identity and a matrix product is the plain sum of
  products, so both results are the same table, entry by entry, in the same arrangement: no algebraic law is needed
  and the finiteness of the inputs is never used.

  The one thing to see is the last grid step: 50000 = 32·1536 + 848, so its movie block overhangs the table. The
  overhanging rows of the staging buffer hold unnamed words; they reach only the tile's columns past the table's end,
  and the write-back moves only the columns inside. Hence every step writes a block of the table, the blocks cover
  it, and the result array ends holding the table (`Cert.KernelIdeal.Whole.run`); the reference's composed term is the
  table too (`Cert.ReferenceIdeal.RefTable.result_is_table`).

  Frames: each program terminates, faults nowhere and leaves its two argument arrays unchanged — the kernel as printed
  with its result buffer carried unnamed (`Cert.Kernel.Whole.frame`), the idealized kernel as part of its run above, the
  reference by its run. The idealization changed no operation of the kernel, so there is nothing to preserve.
-/
import proofs.«125516_j20040317403344_2_alg».proof.Defs
import proofs.«125516_j20040317403344_2_alg».proof.Proof.Gen.Kernel
import proofs.«125516_j20040317403344_2_alg».proof.Proof.Gen.Kernel.Skeleton
import proofs.«125516_j20040317403344_2_alg».proof.Proof.Gen.Kernel.Launch
import proofs.«125516_j20040317403344_2_alg».proof.Proof.Gen.Kernel.Points
import proofs.«125516_j20040317403344_2_alg».proof.Proof.Gen.Kernel.Frame
import proofs.«125516_j20040317403344_2_alg».proof.Proof.Gen.KernelIdeal
import proofs.«125516_j20040317403344_2_alg».proof.Proof.Gen.KernelIdeal.Skeleton
import proofs.«125516_j20040317403344_2_alg».proof.Proof.Gen.KernelIdeal.Launch
import proofs.«125516_j20040317403344_2_alg».proof.Proof.Gen.KernelIdeal.Points
import proofs.«125516_j20040317403344_2_alg».proof.Proof.Gen.KernelIdeal.Frame
import proofs.«125516_j20040317403344_2_alg».proof.Proof.Gen.ReferenceIdeal
import proofs.«125516_j20040317403344_2_alg».proof.Proof.Gen.ReferenceIdeal.Run
import proofs.«125516_j20040317403344_2_alg».proof.Proof.Gen.ReferenceIdeal.Read
import proofs.«125516_j20040317403344_2_alg».proof.Proof.Gen.Pre_finite_inputs
import proofs.«125516_j20040317403344_2_alg».proof.Proof.WholeBits
import proofs.«125516_j20040317403344_2_alg».proof.Proof.WholeIdeal
import proofs.«125516_j20040317403344_2_alg».proof.Proof.RefTable
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Whole.frame (F := Bits) m ρ

/-- So does the idealized kernel. -/
theorem frame_kernel_ideal : Cert.frame_KernelIdeal := fun m ρ _ => Cert.KernelIdeal.Whole.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two tables, both programs end with the interaction table of those tables. -/
theorem algebraic : Cert.algebraic_KernelIdeal_ReferenceIdeal := by
  intro m ρ m' ρ' _ hagree
  refine ⟨fun c => Cert.KernelIdeal.Whole.table m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefTable.result_is_table, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
